-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x64 : Shape := ⟨3, ![4, 50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S4x50000x64 : S_.BroadcastsInDim S4x50000x64 (![] : Fin 0 → Fin S4x50000x64.rank)
  reducesTo_S4x50000x64_S_d0_1_2 : S4x50000x64.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4x50000x64 .f32) (main_arg1 : IVec S800000 32) (main_arg2 : IVec S800000 32) (main_arg3 : FVec F S800000 .f32) (main_arg4 : IVec S800000 32) (main_arg5 : IVec S800000 32) (main_arg6 : FVec F S800000 .f32) (main_arg7 : FVec F S64x64 .f32) (main_arg8 : FVec F S64x64 .f32) (main_arg9 : FVec F S64 .f32) : IVec S_ 1 :=
  let main_v0 : FVec F S4x50000x64 .f32 := Host.absf main_arg0
  let main_cst : FVec F S_ .f32 := constant S_ .f32 0x7F800000#32
  let main_v1 : FVec F S4x50000x64 .f32 := broadcastInDim S4x50000x64 ![] bcast_S_S4x50000x64 main_cst
  let main_v2 : IVec S4x50000x64 1 := cmpf .olt main_v0 main_v1
  let main_c : IVec S_ 1 := constantI S_ 1 1#1
  let main_v3 : IVec S_ 1 := (fun x v => Host.reduce IntOp.andi x v reducesTo_S4x50000x64_S_d0_1_2 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg6
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_arg9 main_v13 main_v16
-- ==== Kernel.lean ====
abbrev S4x50000x64 : Shape := ⟨3, ![4, 50000, 64]⟩
abbrev S800000 : Shape := ⟨1, ![800000]⟩
abbrev S64x64 : Shape := ⟨2, ![64, 64]⟩
abbrev S64 : Shape := ⟨1, ![64]⟩
abbrev S1x10000x64 : Shape := ⟨3, ![1, 10000, 64]⟩
abbrev S10000x64 : Shape := ⟨2, ![10000, 64]⟩
abbrev S800000x1 : Shape := ⟨2, ![800000, 1]⟩
abbrev S_ : Shape := ⟨0, ![]⟩
abbrev S4x800000x64 : Shape := ⟨3, ![4, 800000, 64]⟩
abbrev S1x800000x1 : Shape := ⟨3, ![1, 800000, 1]⟩
abbrev S50000x64 : Shape := ⟨2, ![50000, 64]⟩
abbrev S1x64 : Shape := ⟨2, ![1, 64]⟩

abbrev nBuf : Space → Nat
  | .hbm => 50
  | .vmem => 15
  | .smem => 0
  | _ => 0

abbrev bufTy : (tb : Table) → Fin (tcTables nBuf tb) → BufTy
  | .hbm, ⟨0, _⟩ => ⟨S4x50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S4x50000x64, .f32⟩
  | .hbm, ⟨11, _⟩ => ⟨S4x50000x64, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S4x800000x64, .f32⟩
  | .hbm, ⟨22, _⟩ => ⟨S1x800000x1, .f32⟩
  | .hbm, ⟨23, _⟩ => ⟨S4x800000x64, .f32⟩
  | .hbm, ⟨24, _⟩ => ⟨S4x800000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S4x50000x64, .f32⟩
  | .hbm, ⟨29, _⟩ => ⟨S4x50000x64, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S4x800000x64, .f32⟩
  | .hbm, ⟨40, _⟩ => ⟨S1x800000x1, .f32⟩
  | .hbm, ⟨41, _⟩ => ⟨S4x800000x64, .f32⟩
  | .hbm, ⟨42, _⟩ => ⟨S4x800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S4x50000x64, .f32⟩
  | .hbm, ⟨47, _⟩ => ⟨S4x50000x64, .f32⟩
  | .hbm, ⟨48, _⟩ => ⟨S1x64, .f32⟩
  | .hbm, ⟨49, _⟩ => ⟨S4x50000x64, .f32⟩
  | .local _ .vmem, ⟨0, _⟩ => ⟨S1x10000x64, .f32⟩
  | .local _ .vmem, ⟨1, _⟩ => ⟨S1x10000x64, .f32⟩
  | .local _ .vmem, ⟨2, _⟩ => ⟨S64x64, .f32⟩
  | .local _ .vmem, ⟨3, _⟩ => ⟨S64x64, .f32⟩
  | .local _ .vmem, ⟨4, _⟩ => ⟨S1x10000x64, .f32⟩
  | .local _ .vmem, ⟨5, _⟩ => ⟨S1x10000x64, .f32⟩
  | .local _ .vmem, ⟨6, _⟩ => ⟨S1x10000x64, .f32⟩
  | .local _ .vmem, ⟨7, _⟩ => ⟨S1x10000x64, .f32⟩
  | .local _ .vmem, ⟨8, _⟩ => ⟨S1x10000x64, .f32⟩
  | .local _ .vmem, ⟨9, _⟩ => ⟨S1x10000x64, .f32⟩
  | .local _ .vmem, ⟨10, _⟩ => ⟨S1x10000x64, .f32⟩
  | .local _ .vmem, ⟨11, _⟩ => ⟨S1x10000x64, .f32⟩
  | .local _ .vmem, ⟨12, _⟩ => ⟨S1x64, .f32⟩
  | .local _ .vmem, ⟨13, _⟩ => ⟨S1x10000x64, .f32⟩
  | .local _ .vmem, ⟨14, _⟩ => ⟨S1x10000x64, .f32⟩
  | _, _ => ⟨S4x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![4, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 5], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S10000x64_S1x10000x64 : S10000x64.ShapeCasts S1x10000x64
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S1x800000x1_1_2 : S800000x1.BroadcastsInDim S1x800000x1 (![1, 2] : Fin 2 → Fin S1x800000x1.rank)
  bcast_S1x800000x1_S4x800000x64_0_1_2 : S1x800000x1.BroadcastsInDim S4x800000x64 (![0, 1, 2] : Fin 3 → Fin S4x800000x64.rank)
  bcast_S_S50000x64 : S_.BroadcastsInDim S50000x64 (![] : Fin 0 → Fin S50000x64.rank)
  bcast_S50000x64_S4x50000x64_1_2 : S50000x64.BroadcastsInDim S4x50000x64 (![1, 2] : Fin 2 → Fin S4x50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x64_S64x64_S10000x64_1_0_0_1_n_n_wf : DotDims.WF S10000x64 S64x64 S10000x64 [1] [0] [0] [1] [] []
  gather_S4x50000x64_S800000x1_S4x800000x64_02_1_n_n_1_1_4164_wf : GatherDims.WF S4x50000x64 S800000x1 S4x800000x64 [0, 2] [1] [] [1] [] 1 ![4, 1, 64]
  scatter_S4x50000x64_S800000x1_S4x800000x64_02_1_1_1_wf : ScatterDims.WF S4x50000x64 S800000x1 S4x800000x64 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S4x50000x64.size a
  hwx0_0 : ∀ i : grid0.Coords, EltTy.bits .f32 = 32 ∨ (Rect.block (s := S4x50000x64) S1x10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10000x64.size a ≤ S4x50000x64.size a
  hwx0_3 : ∀ i : grid0.Coords, EltTy.bits .f32 = 32 ∨ (Rect.block (s := S4x50000x64) S1x10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x10000x64.size a ≤ S4x50000x64.size a
  hwx0_4 : ∀ i : grid0.Coords, EltTy.bits .f32 = 32 ∨ (Rect.block (s := S4x50000x64) S1x10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x10000x64.size a ≤ S4x50000x64.size a
  hwx1_0 : ∀ i : grid1.Coords, EltTy.bits .f32 = 32 ∨ (Rect.block (s := S4x50000x64) S1x10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x10000x64.size a ≤ S4x50000x64.size a
  hwx1_1 : ∀ i : grid1.Coords, EltTy.bits .f32 = 32 ∨ (Rect.block (s := S4x50000x64) S1x10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x10000x64.size a ≤ S4x50000x64.size a
  hwx1_3 : ∀ i : grid1.Coords, EltTy.bits .f32 = 32 ∨ (Rect.block (s := S4x50000x64) S1x10000x64.size (cc1_transform_3 i) (hinb1_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S4x50000x64_S800000x1_S4x800000x64_02_1_n_n_1_1_4164 : GatherDims S4x50000x64 S800000x1 S4x800000x64 where
  offsetDims := [0, 2]
  collapsedSliceDims := [1]
  operandBatchingDims := []
  startIndicesBatchingDims := []
  startIndexMap := [1]
  indexVectorDim := 1
  sliceSizes := ![4, 1, 64]
  wf := gather_S4x50000x64_S800000x1_S4x800000x64_02_1_n_n_1_1_4164_wf
def scatter_S4x50000x64_S800000x1_S4x800000x64_02_1_1_1 : ScatterDims S4x50000x64 S800000x1 S4x800000x64 where
  updateWindowDims := [0, 2]
  insertedWindowDims := [1]
  scatterDimsToOperandDims := [1]
  indexVectorDim := 1
  wf := scatter_S4x50000x64_S800000x1_S4x800000x64_02_1_1_1_wf

abbrev win0_0 : Pipeline.Window sig grid0 :=
  Pipeline.Window.ofSpec (Memref.whole main_arg0) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S1x10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x50000x64 : Shape := ⟨3, ![4, 50000, 64]⟩
abbrev S800000 : Shape := ⟨1, ![800000]⟩
abbrev S64x64 : Shape := ⟨2, ![64, 64]⟩
abbrev S64 : Shape := ⟨1, ![64]⟩
abbrev S800000x1 : Shape := ⟨2, ![800000, 1]⟩
abbrev S_ : Shape := ⟨0, ![]⟩
abbrev S4x800000x64 : Shape := ⟨3, ![4, 800000, 64]⟩
abbrev S1x800000x1 : Shape := ⟨3, ![1, 800000, 1]⟩
abbrev S50000x64 : Shape := ⟨2, ![50000, 64]⟩
abbrev S1x1x64 : Shape := ⟨3, ![1, 1, 64]⟩

abbrev nBuf : Space → Nat
  | .hbm => 55
  | .vmem => 0
  | .smem => 0
  | _ => 0

abbrev bufTy : (tb : Table) → Fin (tcTables nBuf tb) → BufTy
  | .hbm, ⟨0, _⟩ => ⟨S4x50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S4x50000x64, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S4x800000x64, .f32⟩
  | .hbm, ⟨21, _⟩ => ⟨S1x800000x1, .f32⟩
  | .hbm, ⟨22, _⟩ => ⟨S4x800000x64, .f32⟩
  | .hbm, ⟨23, _⟩ => ⟨S4x800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S4x50000x64, .f32⟩
  | .hbm, ⟨28, _⟩ => ⟨S4x50000x64, .f32⟩
  | .hbm, ⟨29, _⟩ => ⟨S4x50000x64, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S4x800000x64, .f32⟩
  | .hbm, ⟨40, _⟩ => ⟨S1x800000x1, .f32⟩
  | .hbm, ⟨41, _⟩ => ⟨S4x800000x64, .f32⟩
  | .hbm, ⟨42, _⟩ => ⟨S4x800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S4x50000x64, .f32⟩
  | .hbm, ⟨47, _⟩ => ⟨S4x50000x64, .f32⟩
  | .hbm, ⟨48, _⟩ => ⟨S4x50000x64, .f32⟩
  | .hbm, ⟨49, _⟩ => ⟨S1x1x64, .f32⟩
  | .hbm, ⟨50, _⟩ => ⟨S4x50000x64, .f32⟩
  | .hbm, ⟨51, _⟩ => ⟨S4x50000x64, .f32⟩
  | .hbm, ⟨52, _⟩ => ⟨S_, .f32⟩
  | .hbm, ⟨53, _⟩ => ⟨S4x50000x64, .f32⟩
  | .hbm, ⟨54, _⟩ => ⟨S4x50000x64, .f32⟩
  | _, _ => ⟨S4x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S1x800000x1_1_2 : S800000x1.BroadcastsInDim S1x800000x1 (![1, 2] : Fin 2 → Fin S1x800000x1.rank)
  bcast_S1x800000x1_S4x800000x64_0_1_2 : S1x800000x1.BroadcastsInDim S4x800000x64 (![0, 1, 2] : Fin 3 → Fin S4x800000x64.rank)
  bcast_S_S50000x64 : S_.BroadcastsInDim S50000x64 (![] : Fin 0 → Fin S50000x64.rank)
  bcast_S50000x64_S4x50000x64_1_2 : S50000x64.BroadcastsInDim S4x50000x64 (![1, 2] : Fin 2 → Fin S4x50000x64.rank)
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  bcast_S_S4x50000x64 : S_.BroadcastsInDim S4x50000x64 (![] : Fin 0 → Fin S4x50000x64.rank)
  dot_S4x50000x64_S64x64_S4x50000x64_2_0_01_1_n_n_wf : DotDims.WF S4x50000x64 S64x64 S4x50000x64 [2] [0] [0, 1] [1] [] []
  gather_S4x50000x64_S800000x1_S4x800000x64_02_1_n_n_1_1_4164_wf : GatherDims.WF S4x50000x64 S800000x1 S4x800000x64 [0, 2] [1] [] [1] [] 1 ![4, 1, 64]
  scatter_S4x50000x64_S800000x1_S4x800000x64_02_1_1_1_wf : ScatterDims.WF S4x50000x64 S800000x1 S4x800000x64 [0, 2] [1] [1] 1

variable [Facts₀]

def dot_S4x50000x64_S64x64_S4x50000x64_2_0_01_1_n_n : DotDims S4x50000x64 S64x64 S4x50000x64 where
  lhsContracting := [2]
  rhsContracting := [0]
  lhsNonContracting := [0, 1]
  rhsNonContracting := [1]
  lhsBatch := []
  rhsBatch := []
  wf := dot_S4x50000x64_S64x64_S4x50000x64_2_0_01_1_n_n_wf
def gather_S4x50000x64_S800000x1_S4x800000x64_02_1_n_n_1_1_4164 : GatherDims S4x50000x64 S800000x1 S4x800000x64 where
  offsetDims := [0, 2]
  collapsedSliceDims := [1]
  operandBatchingDims := []
  startIndicesBatchingDims := []
  startIndexMap := [1]
  indexVectorDim := 1
  sliceSizes := ![4, 1, 64]
  wf := gather_S4x50000x64_S800000x1_S4x800000x64_02_1_n_n_1_1_4164_wf
def scatter_S4x50000x64_S800000x1_S4x800000x64_02_1_1_1 : ScatterDims S4x50000x64 S800000x1 S4x800000x64 where
  updateWindowDims := [0, 2]
  insertedWindowDims := [1]
  scatterDimsToOperandDims := [1]
  indexVectorDim := 1
  wf := scatter_S4x50000x64_S800000x1_S4x800000x64_02_1_1_1_wf

class Facts : Prop extends Facts₀ where

variable [Facts]
-- ==== Proof.RunNamed.lean ====
/-
  The idealized kernel's run with its result array named.

  The program is two pipelined regions around a stretch of host operations.  Its run is read as a fold of the
  buffer contents through the three segments: after the first region the two product arrays hold what that
  pipeline's write-backs leave, the host stretch then computes the two sparse propagations from them, and
  after the second region the result array holds what the second pipeline's write-backs leave.  This module
  re-states the run so that the final contents of the RESULT buffer are named (the last fold, read at the
  result's buffer), beside the ten argument arrays ending as launched.
-/
import proofs.«162360_j26834955665849_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    fold's contents there, and each argument array ends as launched. -/
theorem run_named : θ_run defs (onTc (τ := τ) (main (F := F))) ⟨m, fun _ => 0, ρ⟩ (fun r => ∀ c : Dev nD,
      r.2.mem ((c.tc : Thread nD τ).loc main_v32) = W3 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v32 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Whole

end
-- ==== Proof.Layers.lean ====
/-
  The two dense pieces of a two-support graph convolution, as whole-array functions over the extended reals.

  With features `x : [4, 50000, 64]` and a weight `w : [64, 64]`, the feature product is
      dense x w (b, n, o) = Σ_k x (b, n, k) · w (k, o),
  the sum taken over the 64 input features in their index order.  With the two propagated arrays `p`, `q`
  and a bias row `β : [1, 64]`, the layer's output is
      biasRelu p q β (b, n, o) = max ((p (b, n, o) + q (b, n, o)) + β (0, o)) 0.
  Both are stated index by index at literal shapes; the sparse propagation between them is carried as an
  opaque function and never opened.
-/
import Idealize.ShloMosaic.PureOps.Ideal
import Idealize.ShloMosaic.Lib.ValueIdx

noncomputable section

namespace GraphConv

open Idealize.ShloMosaic Idealize.ShloMosaic.ValueIdx

/-- Features, and every array of the layer's output shape. -/
abbrev SFeat : Shape := ⟨3, ![4, 50000, 64]⟩
/-- A weight matrix. -/
abbrev SWeight : Shape := ⟨2, ![64, 64]⟩
/-- The bias as one row. -/
abbrev SBiasRow : Shape := ⟨2, ![1, 64]⟩

/-- The feature product: entry `(b, n, o)` is the sum over the input features `k` of `x (b, n, k) · w (k, o)`. -/
def dense (x : SFeat.Idx → EReal) (w : SWeight.Idx → EReal) : SFeat.Idx → EReal :=
  fun i => ∑ k : Fin 64, x (ix3 (i 0) (i 1) k) * w (ix2 k (i 2))

/-- A length-64 vector read as the one-row array. -/
def asRow (b : (⟨1, ![64]⟩ : Shape).Idx → EReal) : SBiasRow.Idx → EReal := fun y => b (ix1 (y 1))

/-- The epilogue: the two propagated arrays added, the bias row added along the last axis, negative entries
    replaced by zero. -/
def biasRelu (p q : SFeat.Idx → EReal) (β : SBiasRow.Idx → EReal) : SFeat.Idx → EReal :=
  fun i => max ((p i + q i) + β (ix2 (0 : Fin 1) (i 2))) (Ideal.ofBits .f32 0x00000000#32)

end GraphConv

end
-- ==== Proof.BlockValues.lean ====
/-
  What one grid point's body computes, read at an index of the block it stores.

  A block of the feature array is `[1, 10000, 64]`: ten thousand rows of one batch entry.  The first kernel's
  body multiplies the block's rows by a whole weight matrix (the narrowing to bf16 before the product is the
  identity on the extended reals, and the product accumulates into zero), so row `r`, column `o` of what it
  stores is `Σ_k x (0, r, k) · w (k, o)`.  The second kernel's body adds two blocks entrywise, adds the bias
  row along the columns and takes the maximum with zero.
-/
import proofs.«162360_j26834955665849_1_alg».proof.Proof.Gen.KernelIdeal.Skeleton
import proofs.«162360_j26834955665849_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Whole

open Cert.KernelIdeal Cert.KernelIdeal.Gen
open Idealize.ShloMosaic Idealize.ShloMosaic.TcCoe Idealize.ShloMosaic.ValueIdx

/-- The product's dimension record: rows of the left factor against columns of the right. -/
abbrev rowsByCols := Cert.KernelIdeal.dot_S10000x64_S64x64_S10000x64_1_0_0_1_n_n

theorem left_row (j : S10000x64.Idx) (q : rowsByCols.contr.Idx) : (rowsByCols.lhsIdx j q 0).val = (j 0).val := by
  unfold DotDims.lhsIdx
  rw [dif_neg (show ¬(0 : Fin S10000x64.rank) ∈ rowsByCols.lhsBatch by decide), dif_pos (show (0 : Fin S10000x64.rank) ∈ rowsByCols.lhsNonContracting by decide)]
  rfl
theorem left_contracted (j : S10000x64.Idx) (q : rowsByCols.contr.Idx) : (rowsByCols.lhsIdx j q 1).val = (q ⟨0, by decide⟩).val :=
  rowsByCols.lhsIdx_val_of_single rfl j q
theorem right_contracted (j : S10000x64.Idx) (q : rowsByCols.contr.Idx) : (rowsByCols.rhsIdx j q 0).val = (q ⟨0, by decide⟩).val :=
  rowsByCols.rhsIdx_val_of_single rfl j q
theorem right_col (j : S10000x64.Idx) (q : rowsByCols.contr.Idx) : (rowsByCols.rhsIdx j q 1).val = (j 1).val := by
  unfold DotDims.rhsIdx
  rw [dif_neg (show ¬(1 : Fin S64x64.rank) ∈ rowsByCols.rhsBatch by decide), dif_pos (show (1 : Fin S64x64.rank) ∈ rowsByCols.rhsNonContracting by decide)]
  rfl

/-- The matrix product into a zero accumulator, at row `r` and column `o`: the sum over the contracted index in
    its order. -/
theorem product_apply (a : FVec Ideal S10000x64 .bf16) (w : FVec Ideal S64x64 .bf16) (r : Fin 10000) (o : Fin 64) :
    FloatOps.matmul rowsByCols none a w (constant (F := Ideal) S10000x64 .f32 0x00000000#32) (ix2 r o)
      = ∑ k : Fin 64, a (ix2 r k) * w (ix2 k o) := by
  rw [Ideal.matmul_constant_zero_apply, ← Equiv.sum_comp (ValueIdx.contrEquiv1 rowsByCols 64 rfl rfl).symm]
  refine Finset.sum_congr rfl fun k _ => ?_
  have hk := ValueIdx.contrEquiv1_symm_val rowsByCols 64 rfl rfl k
  have el : rowsByCols.lhsIdx (ix2 r o) ((ValueIdx.contrEquiv1 rowsByCols 64 rfl rfl).symm k) = ix2 r k := funext fun a => Fin.ext (by
    match a with
    | ⟨0, _⟩ => exact left_row _ _
    | ⟨1, _⟩ => exact (left_contracted _ _).trans hk)
  have er : rowsByCols.rhsIdx (ix2 r o) ((ValueIdx.contrEquiv1 rowsByCols 64 rfl rfl).symm k) = ix2 k o := funext fun a => Fin.ext (by
    match a with
    | ⟨0, _⟩ => exact (right_contracted _ _).trans hk
    | ⟨1, _⟩ => exact right_col _ _)
  rw [el, er]

/-- The first kernel's stored block at `(u, r, o)`: row `r` of the loaded feature block against column `o` of the
    loaded weight. -/
theorem product_block_apply (x : Vec Ideal S1x10000x64 .f32) (w : Vec Ideal S64x64 .f32) (u : Fin 1) (r : Fin 10000) (o : Fin 64) :
    k0_pay2 (F := Ideal) x w (ix3 u r o) = ∑ k : Fin 64, x (ix3 (0 : Fin 1) r k) * w (ix2 k o) := by
  unfold k0_pay2 k0_pay1
  refine (shapeCast_ab_1ab_apply _ _ u r o).trans ?_
  refine (product_apply _ _ r o).trans ?_
  refine Finset.sum_congr rfl fun k _ => ?_
  refine congrArg (· * w (ix2 k o)) ?_
  exact shapeCast_1ab_ab_apply x _ r k

/-- The second stored block of the first kernel is the same function of the feature block and the other weight. -/
theorem product_block_apply' (x : Vec Ideal S1x10000x64 .f32) (w : Vec Ideal S64x64 .f32) (u : Fin 1) (r : Fin 10000) (o : Fin 64) :
    k0_pay3 (F := Ideal) x w (ix3 u r o) = ∑ k : Fin 64, x (ix3 (0 : Fin 1) r k) * w (ix2 k o) := by
  unfold k0_pay3 k0_pay1
  refine (shapeCast_ab_1ab_apply _ _ u r o).trans ?_
  refine (product_apply _ _ r o).trans ?_
  refine Finset.sum_congr rfl fun k _ => ?_
  refine congrArg (· * w (ix2 k o)) ?_
  exact shapeCast_1ab_ab_apply x _ r k

/-- The second kernel's stored block at `(u, r, o)`: the two loaded blocks added there, the bias row's column `o`
    added, the maximum with zero. -/
theorem epilogue_block_apply (p q : Vec Ideal S1x10000x64 .f32) (β : Vec Ideal S1x64 .f32) (u : Fin 1) (r : Fin 10000) (o : Fin 64) :
    k1_pay1 (F := Ideal) p q β (ix3 u r o)
      = max ((p (ix3 (0 : Fin 1) r o) + q (ix3 (0 : Fin 1) r o)) + β (ix2 (0 : Fin 1) o)) (Ideal.ofBits .f32 0x00000000#32) := by
  unfold k1_pay1
  refine (shapeCast_ab_1ab_apply _ _ u r o).trans ?_
  show max ((shapeCast S10000x64 p _ (ix2 r o) + shapeCast S10000x64 q _ (ix2 r o))
      + broadcastTo S10000x64 (shapeCast S1x64 β _) _ (ix2 r o)) (Ideal.ofBits .f32 0x00000000#32) = _
  rw [shapeCast_1ab_ab_apply p _ r o, shapeCast_1ab_ab_apply q _ r o, broadcastTo_1b_ab_apply _ _ r o, shapeCast_self]

end Cert.KernelIdeal.Whole

end
-- ==== Proof.Blocks.lean ====
/-
  From blocks to whole arrays, for each pipelined region at any contents `V` it is entered with.

  Both regions walk a 4 × 5 grid; point `(b, s)` handles the block of rows `10000·s … 10000·s + 9999` of batch
  entry `b`, for every `[4, 50000, 64]` window, while a weight matrix or the bias row is one block read whole at
  every point.  Hence what a point writes back is the matching block of ONE whole-array function of the arrays the
  region reads — the feature product for the first region, the biased rectified sum for the second — and since the
  twenty blocks tile the array, the output array ends holding that function everywhere.
-/
import proofs.«162360_j26834955665849_1_alg».proof.Proof.Gen.KernelIdeal.Frame
import proofs.«162360_j26834955665849_1_alg».proof.Proof.BlockValues
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The per-point equations over plain variables -/

/-- If the loaded feature block holds the rows of `X` that the array index `i` names, and the loaded weight is `Wt`,
    the stored entry at `j` is the feature product at `i`. -/
theorem dense_of_blocks (X : S4x50000x64.Idx → EReal) (Wt : S64x64.Idx → EReal)
    (x : Vec Ideal S1x10000x64 .f32) (w : Vec Ideal S64x64 .f32) (j : S1x10000x64.Idx) (i : S4x50000x64.Idx)
    (hx : ∀ k : Fin 64, x (ix3 (0 : Fin 1) (j 1) k) = X (ix3 (i 0) (i 1) k))
    (hw : ∀ k : Fin 64, w (ix2 k (j 2)) = Wt (ix2 k (i 2))) :
    k0_pay2 (F := Ideal) x w j = GraphConv.dense X Wt i := by
  rw [eq_ix3 j]
  refine (product_block_apply x w (j 0) (j 1) (j 2)).trans ?_
  unfold GraphConv.dense
  exact Finset.sum_congr rfl fun k _ => by rw [hx k, hw k]

theorem dense_of_blocks' (X : S4x50000x64.Idx → EReal) (Wt : S64x64.Idx → EReal)
    (x : Vec Ideal S1x10000x64 .f32) (w : Vec Ideal S64x64 .f32) (j : S1x10000x64.Idx) (i : S4x50000x64.Idx)
    (hx : ∀ k : Fin 64, x (ix3 (0 : Fin 1) (j 1) k) = X (ix3 (i 0) (i 1) k))
    (hw : ∀ k : Fin 64, w (ix2 k (j 2)) = Wt (ix2 k (i 2))) :
    k0_pay3 (F := Ideal) x w j = GraphConv.dense X Wt i := by
  rw [eq_ix3 j]
  refine (product_block_apply' x w (j 0) (j 1) (j 2)).trans ?_
  unfold GraphConv.dense
  exact Finset.sum_congr rfl fun k _ => by rw [hx k, hw k]

/-- If the two loaded blocks hold `P` and `Q` at the array index `i` and the loaded bias row is `B`, the stored entry
    at `j` is the biased rectified sum at `i`. -/
theorem biasRelu_of_blocks (P Q : S4x50000x64.Idx → EReal) (B : S1x64.Idx → EReal)
    (p q : Vec Ideal S1x10000x64 .f32) (β : Vec Ideal S1x64 .f32) (j : S1x10000x64.Idx) (i : S4x50000x64.Idx)
    (hp : p (ix3 (0 : Fin 1) (j 1) (j 2)) = P i) (hq : q (ix3 (0 : Fin 1) (j 1) (j 2)) = Q i)
    (hβ : β (ix2 (0 : Fin 1) (j 2)) = B (ix2 (0 : Fin 1) (i 2))) :
    k1_pay1 (F := Ideal) p q β j = GraphConv.biasRelu P Q B i := by
  rw [eq_ix3 j]
  refine (epilogue_block_apply p q β (j 0) (j 1) (j 2)).trans ?_
  unfold GraphConv.biasRelu
  rw [hp, hq, hβ]

section Regions
variable (V : (c : Dev nD) → (b : Ref sig .tc) → Buf (Elt Ideal) ((c : Thread nD τ).loc b))

/-! ## The first region: the two feature products -/

/-- The printed index maps over the first grid: the three feature-shaped windows move together, block `(b, s, 0)`;
    the weights stay at block `(0, 0)`. -/
theorem maps0 : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block of the 4 × 5 tiling is some point's. -/
theorem onto0_3 : ∀ (q0 : Fin 4) (q1 : Fin 5), ∃ t : Fin cfg0.N, win0_3.index t = ![q0.val, q1.val, 0] :=
  (by decide +kernel : ∀ (q0 : Fin 4) (q1 : Fin 5), ∃ t : Fin grid0.N, win0_3.index t = ![q0.val, q1.val, 0])
theorem onto0_4 : ∀ (q0 : Fin 4) (q1 : Fin 5), ∃ t : Fin cfg0.N, win0_4.index t = ![q0.val, q1.val, 0] :=
  (by decide +kernel : ∀ (q0 : Fin 4) (q1 : Fin 5), ∃ t : Fin grid0.N, win0_4.index t = ![q0.val, q1.val, 0])

/-- What point `t` writes back to the first product array is block `t` of `dense` of the features and the first weight. -/
theorem flushed0_3_eq (c : Dev nD) (t : Fin cfg0.N) :
    (dat0 V c).flushed 3 t = ((cfg0.win 3).blk t).view.read (Elt Ideal) (GraphConv.dense (V c main_arg0) (V c main_arg7)) := by
  show (cfg0.win 3).cut (grid0.coords t) ((dat0 V c).after 3 t) = _
  rw [after0_3]
  unfold out0_3
  rw [View.canon_unit_zero zeros3]
  simp only [View.ld_unit_zero (S := S1x10000x64) zeros3, View.ld_unit_zero (S := S64x64) zeros2]
  obtain ⟨e0, e1, e2, e3, -, -, -, e7, e8, -, -⟩ := maps0 t
  funext j
  show k0_pay2 (F := Ideal) (iblk0 V c 0 t) (iblk0 V c 1 t) j = GraphConv.dense (V c main_arg0) (V c main_arg7) (((cfg0.win 3).blk t).view.emb j)
  refine dense_of_blocks _ _ _ _ j _ (fun k => ?_) (fun k => ?_)
  · show V c main_arg0 (((cfg0.win 0).blk t).view.emb (ix3 (0 : Fin 1) (j 1) k)) = _
    refine congrArg (V c main_arg0) (funext fun a => Fin.ext ?_)
    match a with
    | ⟨0, _⟩ => show win0_0.index t (0 : Fin 3) * 1 + 1 * 0 = win0_3.index t (0 : Fin 3) * 1 + 1 * (j 0).val; have hj : (j 0).val < 1 := (j 0).isLt; omega
    | ⟨1, _⟩ => show win0_0.index t (1 : Fin 3) * 10000 + 1 * (j 1).val = win0_3.index t (1 : Fin 3) * 10000 + 1 * (j 1).val; omega
    | ⟨2, _⟩ => show win0_0.index t (2 : Fin 3) * 64 + 1 * k.val = k.val; omega
  · show V c main_arg7 (((cfg0.win 1).blk t).view.emb (ix2 k (j 2))) = _
    refine congrArg (V c main_arg7) (funext fun a => Fin.ext ?_)
    match a with
    | ⟨0, _⟩ => show win0_1.index t (0 : Fin 2) * 64 + 1 * k.val = k.val; omega
    | ⟨1, _⟩ => show win0_1.index t (1 : Fin 2) * 64 + 1 * (j 2).val = win0_3.index t (2 : Fin 3) * 64 + 1 * (j 2).val; omega

/-- What point `t` writes back to the second product array is block `t` of `dense` of the features and the second weight. -/
theorem flushed0_4_eq (c : Dev nD) (t : Fin cfg0.N) :
    (dat0 V c).flushed 4 t = ((cfg0.win 4).blk t).view.read (Elt Ideal) (GraphConv.dense (V c main_arg0) (V c main_arg8)) := by
  show (cfg0.win 4).cut (grid0.coords t) ((dat0 V c).after 4 t) = _
  rw [after0_4]
  unfold out0_4
  rw [View.canon_unit_zero zeros3]
  simp only [View.ld_unit_zero (S := S1x10000x64) zeros3, View.ld_unit_zero (S := S64x64) zeros2]
  obtain ⟨e0, e1, e2, e3, e4, e5, e6, -, -, e9, e10⟩ := maps0 t
  funext j
  show k0_pay3 (F := Ideal) (iblk0 V c 0 t) (iblk0 V c 2 t) j = GraphConv.dense (V c main_arg0) (V c main_arg8) (((cfg0.win 4).blk t).view.emb j)
  refine dense_of_blocks' _ _ _ _ j _ (fun k => ?_) (fun k => ?_)
  · show V c main_arg0 (((cfg0.win 0).blk t).view.emb (ix3 (0 : Fin 1) (j 1) k)) = _
    refine congrArg (V c main_arg0) (funext fun a => Fin.ext ?_)
    match a with
    | ⟨0, _⟩ => show win0_0.index t (0 : Fin 3) * 1 + 1 * 0 = win0_4.index t (0 : Fin 3) * 1 + 1 * (j 0).val; have hj : (j 0).val < 1 := (j 0).isLt; omega
    | ⟨1, _⟩ => show win0_0.index t (1 : Fin 3) * 10000 + 1 * (j 1).val = win0_4.index t (1 : Fin 3) * 10000 + 1 * (j 1).val; omega
    | ⟨2, _⟩ => show win0_0.index t (2 : Fin 3) * 64 + 1 * k.val = k.val; omega
  · show V c main_arg8 (((cfg0.win 2).blk t).view.emb (ix2 k (j 2))) = _
    refine congrArg (V c main_arg8) (funext fun a => Fin.ext ?_)
    match a with
    | ⟨0, _⟩ => show win0_2.index t (0 : Fin 2) * 64 + 1 * k.val = k.val; omega
    | ⟨1, _⟩ => show win0_2.index t (1 : Fin 2) * 64 + 1 * (j 2).val = win0_4.index t (2 : Fin 3) * 64 + 1 * (j 2).val; omega

/-- An array index is in point `t`'s block iff each coordinate is in the block's range on its axis. -/
theorem mem_blk0_3 (t : Fin cfg0.N) (i : S4x50000x64.Idx) :
    i ∈ ((cfg0.win 3).blk t).view.set ↔ ∀ a : Fin 3, win0_3.index t a * S1x10000x64.size a ≤ (i a).val ∧ (i a).val < win0_3.index t a * S1x10000x64.size a + S1x10000x64.size a := by
  show i ∈ ((View.whole main_v0_0).slice (win0_3.rect t)).set ↔ _
  rw [View.set_slice_whole, Rect.mem_set_unit]
  exact Iff.rfl
theorem mem_blk0_4 (t : Fin cfg0.N) (i : S4x50000x64.Idx) :
    i ∈ ((cfg0.win 4).blk t).view.set ↔ ∀ a : Fin 3, win0_4.index t a * S1x10000x64.size a ≤ (i a).val ∧ (i a).val < win0_4.index t a * S1x10000x64.size a + S1x10000x64.size a := by
  show i ∈ ((View.whole main_v0_1).slice (win0_4.rect t)).set ↔ _
  rw [View.set_slice_whole, Rect.mem_set_unit]
  exact Iff.rfl

/-- Row `n` of batch entry `b` lies in the block of the point with block index `(b, n / 10000, 0)`. -/
theorem tiled0_3 (i : S4x50000x64.Idx) : ∃ t : Fin cfg0.N, (cfg0.win 3).flush t = true ∧ i ∈ ((cfg0.win 3).blk t).view.set := by
  have hi0 : (i 0).val < 4 := (i 0).isLt
  have hi1 : (i 1).val < 50000 := (i 1).isLt
  have hi2 : (i 2).val < 64 := (i 2).isLt
  obtain ⟨t, ht⟩ := onto0_3 ⟨(i 0).val, hi0⟩ ⟨(i 1).val / 10000, by omega⟩
  have q0 : win0_3.index t (0 : Fin 3) = (i 0).val := congrFun ht 0
  have q1 : win0_3.index t (1 : Fin 3) = (i 1).val / 10000 := congrFun ht 1
  have q2 : win0_3.index t (2 : Fin 3) = 0 := congrFun ht 2
  refine ⟨t, flush0_3 t, ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 10000 ≤ (i 1).val ∧ (i 1).val < win0_3.index t (1 : Fin 3) * 10000 + 10000; omega
  | ⟨2, _⟩ => show win0_3.index t (2 : Fin 3) * 64 ≤ (i 2).val ∧ (i 2).val < win0_3.index t (2 : Fin 3) * 64 + 64; omega
theorem tiled0_4 (i : S4x50000x64.Idx) : ∃ t : Fin cfg0.N, (cfg0.win 4).flush t = true ∧ i ∈ ((cfg0.win 4).blk t).view.set := by
  have hi0 : (i 0).val < 4 := (i 0).isLt
  have hi1 : (i 1).val < 50000 := (i 1).isLt
  have hi2 : (i 2).val < 64 := (i 2).isLt
  obtain ⟨t, ht⟩ := onto0_4 ⟨(i 0).val, hi0⟩ ⟨(i 1).val / 10000, by omega⟩
  have q0 : win0_4.index t (0 : Fin 3) = (i 0).val := congrFun ht 0
  have q1 : win0_4.index t (1 : Fin 3) = (i 1).val / 10000 := congrFun ht 1
  have q2 : win0_4.index t (2 : Fin 3) = 0 := congrFun ht 2
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 10000 ≤ (i 1).val ∧ (i 1).val < win0_4.index t (1 : Fin 3) * 10000 + 10000; omega
  | ⟨2, _⟩ => show win0_4.index t (2 : Fin 3) * 64 ≤ (i 2).val ∧ (i 2).val < win0_4.index t (2 : Fin 3) * 64 + 64; omega

/-- After the first region the first product array is the feature product with the first weight, -/
theorem product_array (c : Dev nD) : (dat0 V c).arrAt 3 cfg0.N = GraphConv.dense (V c main_arg0) (V c main_arg7) :=
  (dat0 V c).arrAt_eq_of_cover 3 (GraphConv.dense (V c main_arg0) (V c main_arg7)) (fun t _ => flushed0_3_eq V c t) tiled0_3
/-- and the second the feature product with the second weight. -/
theorem product_array' (c : Dev nD) : (dat0 V c).arrAt 4 cfg0.N = GraphConv.dense (V c main_arg0) (V c main_arg8) :=
  (dat0 V c).arrAt_eq_of_cover 4 (GraphConv.dense (V c main_arg0) (V c main_arg8)) (fun t _ => flushed0_4_eq V c t) tiled0_4

/-! ## The second region: the epilogue -/

/-- The printed index maps over the second grid: the three feature-shaped windows move together; the bias row stays. -/
theorem maps1 : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = win1_3.index t (1 : Fin 3)
    ∧ win1_1.index t (2 : Fin 3) = win1_3.index t (2 : Fin 3)
    ∧ win1_3.index t (2 : Fin 3) = 0
    ∧ win1_2.index t (0 : Fin 2) = 0 ∧ win1_2.index t (1 : Fin 2) = 0 :=
  (by decide +kernel : ∀ t : Fin grid1.N, _)

theorem onto1_3 : ∀ (q0 : Fin 4) (q1 : Fin 5), ∃ t : Fin cfg1.N, win1_3.index t = ![q0.val, q1.val, 0] :=
  (by decide +kernel : ∀ (q0 : Fin 4) (q1 : Fin 5), ∃ t : Fin grid1.N, win1_3.index t = ![q0.val, q1.val, 0])

/-- What point `t` writes back to the result array is block `t` of the biased rectified sum of the three arrays the
    region reads. -/
theorem flushed1_3_eq (c : Dev nD) (t : Fin cfg1.N) :
    (dat1 V c).flushed 3 t = ((cfg1.win 3).blk t).view.read (Elt Ideal) (GraphConv.biasRelu (V c main_v15) (V c main_v30) (V c main_v31)) := by
  show (cfg1.win 3).cut (grid1.coords t) ((dat1 V c).after 3 t) = _
  rw [after1_3]
  unfold out1_3
  rw [View.canon_unit_zero zeros3]
  simp only [View.ld_unit_zero (S := S1x10000x64) zeros3, View.ld_unit_zero (S := S1x64) zeros2]
  obtain ⟨e0, e1, e2, e3, e4, e5, e6, e7, e8⟩ := maps1 t
  funext j
  show k1_pay1 (F := Ideal) (iblk1 V c 0 t) (iblk1 V c 1 t) (iblk1 V c 2 t) j
    = GraphConv.biasRelu (V c main_v15) (V c main_v30) (V c main_v31) (((cfg1.win 3).blk t).view.emb j)
  refine biasRelu_of_blocks _ _ _ _ _ _ j _ ?_ ?_ ?_
  · show V c main_v15 (((cfg1.win 0).blk t).view.emb (ix3 (0 : Fin 1) (j 1) (j 2))) = _
    refine congrArg (V c main_v15) (funext fun a => Fin.ext ?_)
    match a with
    | ⟨0, _⟩ => show win1_0.index t (0 : Fin 3) * 1 + 1 * 0 = win1_3.index t (0 : Fin 3) * 1 + 1 * (j 0).val; have hj : (j 0).val < 1 := (j 0).isLt; omega
    | ⟨1, _⟩ => show win1_0.index t (1 : Fin 3) * 10000 + 1 * (j 1).val = win1_3.index t (1 : Fin 3) * 10000 + 1 * (j 1).val; omega
    | ⟨2, _⟩ => show win1_0.index t (2 : Fin 3) * 64 + 1 * (j 2).val = win1_3.index t (2 : Fin 3) * 64 + 1 * (j 2).val; omega
  · show V c main_v30 (((cfg1.win 1).blk t).view.emb (ix3 (0 : Fin 1) (j 1) (j 2))) = _
    refine congrArg (V c main_v30) (funext fun a => Fin.ext ?_)
    match a with
    | ⟨0, _⟩ => show win1_1.index t (0 : Fin 3) * 1 + 1 * 0 = win1_3.index t (0 : Fin 3) * 1 + 1 * (j 0).val; have hj : (j 0).val < 1 := (j 0).isLt; omega
    | ⟨1, _⟩ => show win1_1.index t (1 : Fin 3) * 10000 + 1 * (j 1).val = win1_3.index t (1 : Fin 3) * 10000 + 1 * (j 1).val; omega
    | ⟨2, _⟩ => show win1_1.index t (2 : Fin 3) * 64 + 1 * (j 2).val = win1_3.index t (2 : Fin 3) * 64 + 1 * (j 2).val; omega
  · show V c main_v31 (((cfg1.win 2).blk t).view.emb (ix2 (0 : Fin 1) (j 2))) = _
    refine congrArg (V c main_v31) (funext fun a => Fin.ext ?_)
    match a with
    | ⟨0, _⟩ => show win1_2.index t (0 : Fin 2) * 1 + 1 * 0 = 0; omega
    | ⟨1, _⟩ => show win1_2.index t (1 : Fin 2) * 64 + 1 * (j 2).val = win1_3.index t (2 : Fin 3) * 64 + 1 * (j 2).val; omega

theorem mem_blk1_3 (t : Fin cfg1.N) (i : S4x50000x64.Idx) :
    i ∈ ((cfg1.win 3).blk t).view.set ↔ ∀ a : Fin 3, win1_3.index t a * S1x10000x64.size a ≤ (i a).val ∧ (i a).val < win1_3.index t a * S1x10000x64.size a + S1x10000x64.size a := by
  show i ∈ ((View.whole main_v32).slice (win1_3.rect t)).set ↔ _
  rw [View.set_slice_whole, Rect.mem_set_unit]
  exact Iff.rfl

theorem tiled1_3 (i : S4x50000x64.Idx) : ∃ t : Fin cfg1.N, (cfg1.win 3).flush t = true ∧ i ∈ ((cfg1.win 3).blk t).view.set := by
  have hi0 : (i 0).val < 4 := (i 0).isLt
  have hi1 : (i 1).val < 50000 := (i 1).isLt
  have hi2 : (i 2).val < 64 := (i 2).isLt
  obtain ⟨t, ht⟩ := onto1_3 ⟨(i 0).val, hi0⟩ ⟨(i 1).val / 10000, by omega⟩
  have q0 : win1_3.index t (0 : Fin 3) = (i 0).val := congrFun ht 0
  have q1 : win1_3.index t (1 : Fin 3) = (i 1).val / 10000 := congrFun ht 1
  have q2 : win1_3.index t (2 : Fin 3) = 0 := congrFun ht 2
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 10000 ≤ (i 1).val ∧ (i 1).val < win1_3.index t (1 : Fin 3) * 10000 + 10000; omega
  | ⟨2, _⟩ => show win1_3.index t (2 : Fin 3) * 64 ≤ (i 2).val ∧ (i 2).val < win1_3.index t (2 : Fin 3) * 64 + 64; omega

/-- After the second region the result array is the biased rectified sum of the arrays the region was entered with. -/
theorem result_array (c : Dev nD) : (dat1 V c).arrAt 3 cfg1.N = GraphConv.biasRelu (V c main_v15) (V c main_v30) (V c main_v31) :=
  (dat1 V c).arrAt_eq_of_cover 3 (GraphConv.biasRelu (V c main_v15) (V c main_v30) (V c main_v31)) (fun t _ => flushed1_3_eq V c t) tiled1_3

end Regions

end Cert.KernelIdeal.Whole

end
-- ==== Proof.HostStretch.lean ====
/-
  The host operations between the two regions, and the kernel's result as one function of its arguments.

  Between the regions the program propagates each feature product along its edge list: it wraps a negative
  source index by adding 50000, gathers the source rows of the product, scales edge `e`'s row by `vals e`, and
  adds the scaled rows into a zero array at the target rows.  That chain is named `propagate` here — a function of
  the product array and the three edge arrays — and is never opened: the reference applies the same chain, so only
  the arrays going into it have to agree.  The bias enters the second region reshaped to one row.

  Reading the run's folds back: the result is the biased rectified sum of the two propagated feature products.
-/
import proofs.«162360_j26834955665849_1_alg».proof.Proof.Gen.KernelIdeal.Frame
import proofs.«162360_j26834955665849_1_alg».proof.Proof.Blocks
import Idealize.ShloMosaic.Lib.StableHlo.Run

set_option maxRecDepth 16384

noncomputable section

namespace Cert.KernelIdeal.Whole

open Cert.KernelIdeal Cert.KernelIdeal.Facts₀
open Idealize.ShloMosaic Idealize.ShloMosaic.TcCoe Idealize.SL.Sem Idealize.ShloMosaic.StableHlo

section
variable {F : FTy → Type} [FloatOps F]

/-- One support's sparse propagation of a `[4, 50000, 64]` array `p` along the edges `(rows e, cols e)` weighted by
    `vals e`, exactly as the program's host operations spell it. -/
def propagate (p : (⟨S4x50000x64, .f32⟩ : BufTy).Contents (Elt F)) (rows cols : (⟨S800000, .i32⟩ : BufTy).Contents (Elt F))
    (vals : (⟨S800000, .f32⟩ : BufTy).Contents (Elt F)) : (⟨S4x50000x64, .f32⟩ : BufTy).Contents (Elt F) :=
  Host.scatterAdd scatter_S4x50000x64_S800000x1_S4x800000x64_02_1_1_1
    (broadcastInDim S4x50000x64 ![1, 2] bcast_S50000x64_S4x50000x64_1_2 (broadcastInDim S50000x64 ![] bcast_S_S50000x64 (constant S_ .f32 0x00000000#32)))
    (broadcastInDim S800000x1 ![0] bcast_S800000_S800000x1_0 rows)
    (mulf (broadcastInDim S4x800000x64 ![0, 1, 2] bcast_S1x800000x1_S4x800000x64_0_1_2 (broadcastInDim S1x800000x1 ![1, 2] bcast_S800000x1_S1x800000x1_1_2 (broadcastInDim S800000x1 ![0] bcast_S800000_S800000x1_0 vals)))
      (Host.gather gather_S4x50000x64_S800000x1_S4x800000x64_02_1_n_n_1_1_4164 p
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

/-- The bias as the one-row array the second region reads. -/
def biasRow (b : (⟨S64, .f32⟩ : BufTy).Contents (Elt F)) : (⟨S1x64, .f32⟩ : BufTy).Contents (Elt F) :=
  shapeCast S1x64 b shapeCasts_S64_S1x64

/-! ## What the stretch leaves in the three arrays the second region reads, from any contents `W` -/

set_option maxHeartbeats 2000000 in
theorem stretch_first (W : Valuation τ sig (Elt F)) :
    StableHlo.after Gen.hostOps1 W (Proc.devRef .tc main_v15)
      = propagate (W (Proc.devRef .tc main_v0_0)) (W (Proc.devRef .tc main_arg1)) (W (Proc.devRef .tc main_arg2)) (W (Proc.devRef .tc main_arg3)) := by
  unfold propagate
  after_results_simp <;> rfl

set_option maxHeartbeats 2000000 in
theorem stretch_second (W : Valuation τ sig (Elt F)) :
    StableHlo.after Gen.hostOps1 W (Proc.devRef .tc main_v30)
      = propagate (W (Proc.devRef .tc main_v0_1)) (W (Proc.devRef .tc main_arg4)) (W (Proc.devRef .tc main_arg5)) (W (Proc.devRef .tc main_arg6)) := by
  unfold propagate
  after_results_simp <;> rfl

set_option maxHeartbeats 2000000 in
theorem stretch_bias (W : Valuation τ sig (Elt F)) :
    StableHlo.after Gen.hostOps1 W (Proc.devRef .tc main_v31) = biasRow (W (Proc.devRef .tc main_arg9)) := by
  unfold biasRow
  after_results_simp <;> rfl

end

/-! ## The folds read back at the extended reals -/

open Cert.KernelIdeal.Gen

variable (m : (ℓ : Loc nD τ sig) → Buf (Elt Ideal) ℓ) (ρ : Dev nD → PrngReg)

/-- After the first region: the product arrays; an argument no window of it names is as launched. -/
theorem left_product (c : Dev nD) : W1 m ρ c (Proc.devRef .tc main_v0_0)
    = GraphConv.dense (m ((c.tc : Thread nD τ).loc main_arg0)) (m ((c.tc : Thread nD τ).loc main_arg7)) :=
  (W1_arr m ρ c 3).trans (product_array (V0 m ρ) c)
theorem right_product (c : Dev nD) : W1 m ρ c (Proc.devRef .tc main_v0_1)
    = GraphConv.dense (m ((c.tc : Thread nD τ).loc main_arg0)) (m ((c.tc : Thread nD τ).loc main_arg8)) :=
  (W1_arr m ρ c 4).trans (product_array' (V0 m ρ) c)

theorem kept1 (c : Dev nD) : W1 m ρ c (Proc.devRef .tc main_arg1) = m ((c.tc : Thread nD τ).loc main_arg1) := W1_of_ne m ρ c main_arg1 (by decide)
theorem kept2 (c : Dev nD) : W1 m ρ c (Proc.devRef .tc main_arg2) = m ((c.tc : Thread nD τ).loc main_arg2) := W1_of_ne m ρ c main_arg2 (by decide)
theorem kept3 (c : Dev nD) : W1 m ρ c (Proc.devRef .tc main_arg3) = m ((c.tc : Thread nD τ).loc main_arg3) := W1_of_ne m ρ c main_arg3 (by decide)
theorem kept4 (c : Dev nD) : W1 m ρ c (Proc.devRef .tc main_arg4) = m ((c.tc : Thread nD τ).loc main_arg4) := W1_of_ne m ρ c main_arg4 (by decide)
theorem kept5 (c : Dev nD) : W1 m ρ c (Proc.devRef .tc main_arg5) = m ((c.tc : Thread nD τ).loc main_arg5) := W1_of_ne m ρ c main_arg5 (by decide)
theorem kept6 (c : Dev nD) : W1 m ρ c (Proc.devRef .tc main_arg6) = m ((c.tc : Thread nD τ).loc main_arg6) := W1_of_ne m ρ c main_arg6 (by decide)
theorem kept9 (c : Dev nD) : W1 m ρ c (Proc.devRef .tc main_arg9) = m ((c.tc : Thread nD τ).loc main_arg9) := W1_of_ne m ρ c main_arg9 (by decide)

/-- The kernel's result as a function of its ten arguments. -/
def result (x : (⟨S4x50000x64, .f32⟩ : BufTy).Contents (Elt Ideal)) (rows1 cols1 : (⟨S800000, .i32⟩ : BufTy).Contents (Elt Ideal))
    (vals1 : (⟨S800000, .f32⟩ : BufTy).Contents (Elt Ideal)) (rows2 cols2 : (⟨S800000, .i32⟩ : BufTy).Contents (Elt Ideal))
    (vals2 : (⟨S800000, .f32⟩ : BufTy).Contents (Elt Ideal)) (w1 w2 : (⟨S64x64, .f32⟩ : BufTy).Contents (Elt Ideal))
    (b : (⟨S64, .f32⟩ : BufTy).Contents (Elt Ideal)) : (⟨S4x50000x64, .f32⟩ : BufTy).Contents (Elt Ideal) :=
  GraphConv.biasRelu (propagate (F := Ideal) (GraphConv.dense x w1) rows1 cols1 vals1)
    (propagate (F := Ideal) (GraphConv.dense x w2) rows2 cols2 vals2) (biasRow (F := Ideal) b)

/-- The last fold at the result buffer is `result` of the launch contents of the arguments. -/
theorem result_value (c : Dev nD) : W3 m ρ c (Proc.devRef .tc main_v32)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  refine (W3_arr m ρ c 3).trans ((result_array (V2 m ρ) c).trans ?_)
  have h15 : V2 m ρ c main_v15 = propagate (F := Ideal) (GraphConv.dense (m ((c.tc : Thread nD τ).loc main_arg0)) (m ((c.tc : Thread nD τ).loc main_arg7)))
      (m ((c.tc : Thread nD τ).loc main_arg1)) (m ((c.tc : Thread nD τ).loc main_arg2)) (m ((c.tc : Thread nD τ).loc main_arg3)) := by
    refine (stretch_first (W1 m ρ c)).trans ?_
    rw [left_product m ρ c, kept1 m ρ c, kept2 m ρ c, kept3 m ρ c]
  have h30 : V2 m ρ c main_v30 = propagate (F := Ideal) (GraphConv.dense (m ((c.tc : Thread nD τ).loc main_arg0)) (m ((c.tc : Thread nD τ).loc main_arg8)))
      (m ((c.tc : Thread nD τ).loc main_arg4)) (m ((c.tc : Thread nD τ).loc main_arg5)) (m ((c.tc : Thread nD τ).loc main_arg6)) := by
    refine (stretch_second (W1 m ρ c)).trans ?_
    rw [right_product m ρ c, kept4 m ρ c, kept5 m ρ c, kept6 m ρ c]
  have h31 : V2 m ρ c main_v31 = biasRow (F := Ideal) (m ((c.tc : Thread nD τ).loc main_arg9)) := by
    refine (stretch_bias (W1 m ρ c)).trans ?_
    rw [kept9 m ρ c]
  rw [h15, h30, h31]
  rfl

end Cert.KernelIdeal.Whole

end
-- ==== Proof.RefValue.lean ====
/-
  The reference's result as the same function of its arguments.

  The reference computes each feature product with one host contraction over the 64 input features — entry
  `(b, n, o)` is `Σ_k x (b, n, k) · w (k, o)`, the same sum in the same order as the kernel's block products —,
  propagates each along its edge list by the same chain of host operations (named `propagate` here as well, over
  this program's own dimension records, and never opened), adds the two, adds the bias broadcast along the last
  axis, and takes the maximum with zero.
-/
import proofs.«162360_j26834955665849_1_alg».proof.Proof.Gen.ReferenceIdeal.Read
import proofs.«162360_j26834955665849_1_alg».proof.Proof.Layers

noncomputable section

namespace Cert.ReferenceIdeal.RefValue

open Cert.ReferenceIdeal Cert.ReferenceIdeal.Read Cert.ReferenceIdeal.Facts₀
open Idealize.ShloMosaic Idealize.ShloMosaic.TcCoe Idealize.ShloMosaic.ValueIdx Idealize.SL.Sem

/-- One support's sparse propagation, exactly as the reference's host operations spell it. -/
def propagate {F : FTy → Type} [FloatOps F] (p : (⟨S4x50000x64, .f32⟩ : BufTy).Contents (Elt F)) (rows cols : (⟨S800000, .i32⟩ : BufTy).Contents (Elt F))
    (vals : (⟨S800000, .f32⟩ : BufTy).Contents (Elt F)) : (⟨S4x50000x64, .f32⟩ : BufTy).Contents (Elt F) :=
  Host.scatterAdd scatter_S4x50000x64_S800000x1_S4x800000x64_02_1_1_1
    (broadcastInDim S4x50000x64 ![1, 2] bcast_S50000x64_S4x50000x64_1_2 (broadcastInDim S50000x64 ![] bcast_S_S50000x64 (constant S_ .f32 0x00000000#32)))
    (broadcastInDim S800000x1 ![0] bcast_S800000_S800000x1_0 rows)
    (mulf (broadcastInDim S4x800000x64 ![0, 1, 2] bcast_S1x800000x1_S4x800000x64_0_1_2 (broadcastInDim S1x800000x1 ![1, 2] bcast_S800000x1_S1x800000x1_1_2 (broadcastInDim S800000x1 ![0] bcast_S800000_S800000x1_0 vals)))
      (Host.gather gather_S4x50000x64_S800000x1_S4x800000x64_02_1_n_n_1_1_4164 p
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

/-- The host contraction with the first weight is the feature product. -/
theorem product_eq (x0 : (⟨S4x50000x64, .f32⟩ : BufTy).Contents (Elt Ideal)) (x7 : (⟨S64x64, .f32⟩ : BufTy).Contents (Elt Ideal)) :
    val_main_v0 (F := Ideal) x0 x7 = GraphConv.dense x0 x7 := by
  funext i
  rw [val_main_v0_apply]
  unfold GraphConv.dense
  refine Finset.sum_congr rfl fun k _ => ?_
  have el : lidx_main_v0 i k = ix3 (i 0) (i 1) k := funext fun a => Fin.ext (by
    match a with
    | ⟨0, _⟩ => rfl
    | ⟨1, _⟩ => rfl
    | ⟨2, _⟩ => rfl)
  have er : ridx_main_v0 i k = ix2 k (i 2) := funext fun a => Fin.ext (by
    match a with
    | ⟨0, _⟩ => rfl
    | ⟨1, _⟩ => rfl)
  rw [el, er]
  rfl

/-- The host contraction with the second weight is the feature product. -/
theorem product_eq' (x0 : (⟨S4x50000x64, .f32⟩ : BufTy).Contents (Elt Ideal)) (x8 : (⟨S64x64, .f32⟩ : BufTy).Contents (Elt Ideal)) :
    val_main_v16 (F := Ideal) x0 x8 = GraphConv.dense x0 x8 := by
  funext i
  rw [val_main_v16_apply]
  unfold GraphConv.dense
  refine Finset.sum_congr rfl fun k _ => ?_
  have el : lidx_main_v16 i k = ix3 (i 0) (i 1) k := funext fun a => Fin.ext (by
    match a with
    | ⟨0, _⟩ => rfl
    | ⟨1, _⟩ => rfl
    | ⟨2, _⟩ => rfl)
  have er : ridx_main_v16 i k = ix2 k (i 2) := funext fun a => Fin.ext (by
    match a with
    | ⟨0, _⟩ => rfl
    | ⟨1, _⟩ => rfl)
  rw [el, er]
  rfl

/-- The first support's stage is the propagation of the first feature product, -/
theorem first_eq (x0 : (⟨S4x50000x64, .f32⟩ : BufTy).Contents (Elt Ideal)) (x1 x2 : (⟨S800000, .i32⟩ : BufTy).Contents (Elt Ideal))
    (x3 : (⟨S800000, .f32⟩ : BufTy).Contents (Elt Ideal)) (x7 : (⟨S64x64, .f32⟩ : BufTy).Contents (Elt Ideal)) :
    val_main_v15 (F := Ideal) x0 x1 x2 x3 x7 = propagate (F := Ideal) (GraphConv.dense x0 x7) x1 x2 x3 := by
  rw [← product_eq]; rfl

/-- and the second support's the propagation of the second. -/
theorem second_eq (x0 : (⟨S4x50000x64, .f32⟩ : BufTy).Contents (Elt Ideal)) (x4 x5 : (⟨S800000, .i32⟩ : BufTy).Contents (Elt Ideal))
    (x6 : (⟨S800000, .f32⟩ : BufTy).Contents (Elt Ideal)) (x8 : (⟨S64x64, .f32⟩ : BufTy).Contents (Elt Ideal)) :
    val_main_v31 (F := Ideal) x0 x4 x5 x6 x8 = propagate (F := Ideal) (GraphConv.dense x0 x8) x4 x5 x6 := by
  rw [← product_eq']; rfl

/-- The reference's result: the biased rectified sum of the two propagated feature products. -/
theorem result_eq (x0 : (⟨S4x50000x64, .f32⟩ : BufTy).Contents (Elt Ideal)) (x1 x2 : (⟨S800000, .i32⟩ : BufTy).Contents (Elt Ideal))
    (x3 : (⟨S800000, .f32⟩ : BufTy).Contents (Elt Ideal)) (x4 x5 : (⟨S800000, .i32⟩ : BufTy).Contents (Elt Ideal))
    (x6 : (⟨S800000, .f32⟩ : BufTy).Contents (Elt Ideal)) (x7 x8 : (⟨S64x64, .f32⟩ : BufTy).Contents (Elt Ideal))
    (x9 : (⟨S64, .f32⟩ : BufTy).Contents (Elt Ideal)) :
    val_main_v36 (F := Ideal) x0 x1 x2 x3 x4 x5 x6 x7 x8 x9
      = GraphConv.biasRelu (propagate (F := Ideal) (GraphConv.dense x0 x7) x1 x2 x3)
          (propagate (F := Ideal) (GraphConv.dense x0 x8) x4 x5 x6) (GraphConv.asRow x9) := by
  funext i
  rw [val_main_v36_apply, val_main_v35_apply, val_main_v32_apply, val_main_v34_apply, val_main_v33_apply,
    val_main_call0_v0_apply, val_main_call0_cst_apply, first_eq, second_eq]
  have e : idx_main_v33 (idx_main_v34 i) = ix1 (i 2) := funext fun a => Fin.ext (by
    match a with
    | ⟨0, _⟩ => rfl)
  rw [e]
  rfl

end Cert.ReferenceIdeal.RefValue

end
-- ==== Proof.lean ====
/-
  A two-support graph convolution: the kernel program against its reference, over the extended reals.

  Both programs compute
      relu ( A₁ · (x W₁) + A₂ · (x W₂) + b ),
  where `x W` is the feature product over the 64 input features and `A · p` is the sparse propagation of `p` along an
  edge list (a gather of source rows, a scaling by the edge values, a scatter-add into the target rows).  The kernel
  program forms the two feature products in one pipelined region, block of ten thousand rows by block, propagates them
  with host operations, and applies bias and rectification in a second pipelined region; the reference does all of it
  with host operations.  On the extended reals the block products are the reference's contraction — the same sum over
  the input features in the same order, the narrowing to bf16 being the identity and the accumulator starting at zero —
  the propagation is the same chain of host operations on both sides and is carried as one unopened function, and the
  epilogue adds and rectifies in the same grouping.  No finiteness of the inputs is used.

  Idealizing the kernel rewrote nothing, so the idealized kernel is the kernel's own text read at the extended reals.
-/
import proofs.«162360_j26834955665849_1_alg».proof.Defs
import proofs.«162360_j26834955665849_1_alg».proof.Proof.Gen.Kernel
import proofs.«162360_j26834955665849_1_alg».proof.Proof.Gen.Kernel.Frame
import proofs.«162360_j26834955665849_1_alg».proof.Proof.Gen.KernelIdeal
import proofs.«162360_j26834955665849_1_alg».proof.Proof.Gen.KernelIdeal.Frame
import proofs.«162360_j26834955665849_1_alg».proof.Proof.Gen.ReferenceIdeal
import proofs.«162360_j26834955665849_1_alg».proof.Proof.Gen.ReferenceIdeal.Run
import proofs.«162360_j26834955665849_1_alg».proof.Proof.Gen.ReferenceIdeal.Read
import proofs.«162360_j26834955665849_1_alg».proof.Proof.Gen.Pre_finite_inputs
import proofs.«162360_j26834955665849_1_alg».proof.Proof.RunNamed
import proofs.«162360_j26834955665849_1_alg».proof.Proof.HostStretch
import proofs.«162360_j26834955665849_1_alg».proof.Proof.RefValue
import Idealize.ShloMosaic.Lib.ValueLayout
import Idealize.ShloMosaic.Adequacy
import Idealize.ShloMosaic.Init

noncomputable section

namespace Cert.Proof

open Idealize.ShloMosaic Idealize.ShloMosaic.TcCoe Idealize.SL.Sem

/-! ## The two programs compute one function -/

/-- The two spellings of the propagation differ only in which program's dimension records they cite. -/
theorem propagate_eq (p : (⟨Cert.KernelIdeal.S4x50000x64, .f32⟩ : BufTy).Contents (Elt Ideal))
    (rows cols : (⟨Cert.KernelIdeal.S800000, .i32⟩ : BufTy).Contents (Elt Ideal))
    (vals : (⟨Cert.KernelIdeal.S800000, .f32⟩ : BufTy).Contents (Elt Ideal)) :
    Cert.KernelIdeal.Whole.propagate (F := Ideal) p rows cols vals = Cert.ReferenceIdeal.RefValue.propagate (F := Ideal) p rows cols vals := rfl

/-- The bias reshaped to one row reads the bias at the column. -/
theorem biasRow_eq (b : (⟨Cert.KernelIdeal.S64, .f32⟩ : BufTy).Contents (Elt Ideal)) :
    Cert.KernelIdeal.Whole.biasRow (F := Ideal) b = GraphConv.asRow b := by
  funext y
  rw [ValueIdx.eq_ix2 y]
  exact ValueIdx.shapeCast_a_1a_apply b _ (y 0) (y 1)

/-- The kernel's function of the ten arguments is the reference's last stage. -/
theorem result_eq (x0 : (⟨Cert.KernelIdeal.S4x50000x64, .f32⟩ : BufTy).Contents (Elt Ideal))
    (x1 x2 : (⟨Cert.KernelIdeal.S800000, .i32⟩ : BufTy).Contents (Elt Ideal)) (x3 : (⟨Cert.KernelIdeal.S800000, .f32⟩ : BufTy).Contents (Elt Ideal))
    (x4 x5 : (⟨Cert.KernelIdeal.S800000, .i32⟩ : BufTy).Contents (Elt Ideal)) (x6 : (⟨Cert.KernelIdeal.S800000, .f32⟩ : BufTy).Contents (Elt Ideal))
    (x7 x8 : (⟨Cert.KernelIdeal.S64x64, .f32⟩ : BufTy).Contents (Elt Ideal)) (x9 : (⟨Cert.KernelIdeal.S64, .f32⟩ : BufTy).Contents (Elt Ideal)) :
    Cert.ReferenceIdeal.Read.val_main_v36 (F := Ideal) x0 x1 x2 x3 x4 x5 x6 x7 x8 x9
      = Cert.KernelIdeal.Whole.result x0 x1 x2 x3 x4 x5 x6 x7 x8 x9 := by
  rw [Cert.ReferenceIdeal.RefValue.result_eq]
  unfold Cert.KernelIdeal.Whole.result
  rw [propagate_eq, propagate_eq, biasRow_eq]

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories agreeing on the arguments both programs end with the result at one function of the kernel's
    arguments. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Whole.result_value m ρ c), (h c).2⟩)
      (Cert.KernelIdeal.Whole.run_named m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v36_eq _ _ _ _ _ _ _ _ _ _).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact result_eq _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
